-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_

variable [Facts]

def fn {F : FTy → Type} [FloatOps F] (main_arg0 : FVec F S4x2048x4096 .f32) (main_arg1 : FVec F S11008x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  main_v8
-- ==== Kernel.lean ====
abbrev S4x2048x4096 : Shape := ⟨3, ![4, 2048, 4096]⟩
abbrev S11008x4096 : Shape := ⟨2, ![11008, 4096]⟩
abbrev S_ : Shape := ⟨0, ![]⟩
abbrev S8192x4096 : Shape := ⟨2, ![8192, 4096]⟩
abbrev S1x1 : Shape := ⟨2, ![1, 1]⟩
abbrev S8192x11008 : Shape := ⟨2, ![8192, 11008]⟩
abbrev S2048x2048 : Shape := ⟨2, ![2048, 2048]⟩
abbrev S256x2048 : Shape := ⟨2, ![256, 2048]⟩
abbrev S2048x256 : Shape := ⟨2, ![2048, 256]⟩
abbrev S4x2048x11008 : Shape := ⟨3, ![4, 2048, 11008]⟩

abbrev nBuf : Space → Nat
  | .hbm => 26
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S11008x4096, .f32⟩
  | .hbm, ⟨10, _⟩ => ⟨S11008x4096, .f32⟩
  | .hbm, ⟨11, _⟩ => ⟨S11008x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S11008x4096, .f32⟩
  | .hbm, ⟨16, _⟩ => ⟨S11008x4096, .f32⟩
  | .hbm, ⟨17, _⟩ => ⟨S_, .f32⟩
  | .hbm, ⟨18, _⟩ => ⟨S11008x4096, .f32⟩
  | .hbm, ⟨19, _⟩ => ⟨S11008x4096, .f32⟩
  | .hbm, ⟨20, _⟩ => ⟨S11008x4096, .bf16⟩
  | .hbm, ⟨21, _⟩ => ⟨S8192x4096, .f32⟩
  | .hbm, ⟨22, _⟩ => ⟨S8192x4096, .bf16⟩
  | .hbm, ⟨23, _⟩ => ⟨S1x1, .f32⟩
  | .hbm, ⟨24, _⟩ => ⟨S8192x11008, .f32⟩
  | .hbm, ⟨25, _⟩ => ⟨S4x2048x11008, .f32⟩
  | .local _ .vmem, ⟨0, _⟩ => ⟨S1x1, .f32⟩
  | .local _ .vmem, ⟨1, _⟩ => ⟨S2048x2048, .bf16⟩
  | .local _ .vmem, ⟨2, _⟩ => ⟨S2048x2048, .bf16⟩
  | .local _ .vmem, ⟨3, _⟩ => ⟨S256x2048, .bf16⟩
  | .local _ .vmem, ⟨4, _⟩ => ⟨S256x2048, .bf16⟩
  | .local _ .vmem, ⟨5, _⟩ => ⟨S2048x256, .f32⟩
  | .local _ .vmem, ⟨6, _⟩ => ⟨S2048x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 43, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S11008x4096_S_d0_1 : S11008x4096.ReducesTo [0, 1] S_
  h_S_ : 0 < S_.numel
  bcast_S_S11008x4096 : S_.BroadcastsInDim S11008x4096 (![] : Fin 0 → Fin S11008x4096.rank)
  bitsLt_bf16_f32 : FTy.bits .bf16 < FTy.bits .f32
  shapeCasts_S4x2048x4096_S8192x4096 : S4x2048x4096.ShapeCasts S8192x4096
  shapeCasts_S_S1x1 : S_.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S8192x11008_S4x2048x11008 : S8192x11008.ShapeCasts S4x2048x11008
  dot_S2048x2048_S256x2048_S2048x256_1_1_0_0_n_n_wf : DotDims.WF S2048x2048 S256x2048 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x4096.size a
  hwx0_1 : ∀ i : grid0.Coords, EltTy.bits .bf16 = 32 ∨ (Rect.block (s := S8192x4096) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S11008x4096.size a
  hwx0_2 : ∀ i : grid0.Coords, EltTy.bits .bf16 = 32 ∨ (Rect.block (s := S11008x4096) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S8192x11008.size a
  hwx0_3 : ∀ i : grid0.Coords, EltTy.bits .f32 = 32 ∨ (Rect.block (s := S8192x11008) S2048x256.size (cc0_transform_3 i) (hinb0_3 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf

abbrev win0_0 : Pipeline.Window sig grid0 :=
  Pipeline.Window.ofSpec (Memref.whole main_v11) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S_ : Shape := ⟨0, ![]⟩
abbrev S4x2048x11008 : Shape := ⟨3, ![4, 2048, 11008]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .f32⟩
  | .hbm, ⟨2, _⟩ => ⟨S11008x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S11008x4096, .f32⟩
  | .hbm, ⟨10, _⟩ => ⟨S11008x4096, .f32⟩
  | .hbm, ⟨11, _⟩ => ⟨S11008x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S11008x4096, .f32⟩
  | .hbm, ⟨16, _⟩ => ⟨S11008x4096, .f32⟩
  | .hbm, ⟨17, _⟩ => ⟨S_, .f32⟩
  | .hbm, ⟨18, _⟩ => ⟨S11008x4096, .f32⟩
  | .hbm, ⟨19, _⟩ => ⟨S11008x4096, .f32⟩
  | .hbm, ⟨20, _⟩ => ⟨S4x2048x11008, .f32⟩
  | .hbm, ⟨21, _⟩ => ⟨S4x2048x11008, .f32⟩
  | .hbm, ⟨22, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_cst_3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]

class Facts₀ : Prop where
  reducesTo_S11008x4096_S_d0_1 : S11008x4096.ReducesTo [0, 1] S_
  h_S_ : 0 < S_.numel
  bcast_S_S11008x4096 : S_.BroadcastsInDim S11008x4096 (![] : Fin 0 → Fin S11008x4096.rank)
  bcast_S_S4x2048x11008 : S_.BroadcastsInDim S4x2048x11008 (![] : Fin 0 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Head.lean ====
/-
  What the host lines before the kernel region hand to it, as functions of the two arguments.

  The weights operand is the ternary array clip(round(weight / scale), −1, 1), the activations operand is x laid out
  as 8192 rows of 4096, and the scale operand is the one number scale = mean|weight| + ε laid out as a 1×1 array. A
  change of float format is the identity on the extended reals, so the two narrowings to sixteen bits disappear. The
  reference computes the same scale and the same ternary array with the same operations, so both are named here by
  the reference's own stages and never opened.
-/
import proofs.«164007_j15822659519237_2_alg».proof.Proof.Gen.KernelIdeal.Frame
import proofs.«164007_j15822659519237_2_alg».proof.Proof.Gen.ReferenceIdeal.Read
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem

namespace Cert.KernelIdeal.Head
open Cert.KernelIdeal Cert.KernelIdeal.Gen ValueIdx

variable (m : (ℓ : Loc nD τ sig) → Buf (Elt Ideal) ℓ)

/-- scale = mean|weight| + ε, as the reference computes it (a rank-0 array). -/
abbrev scaleOf (w : S11008x4096.Idx → EReal) : S_.Idx → EReal := Cert.ReferenceIdeal.Read.val_main_v3 (F := Ideal) w
/-- clip(round(weight / scale), −1, 1), as the reference computes it. -/
abbrev ternary (w : S11008x4096.Idx → EReal) : S11008x4096.Idx → EReal := Cert.ReferenceIdeal.Read.val_main_v7 (F := Ideal) w

/-- The region's weights operand is the ternary array. -/
theorem V_w (c : Dev nD) :
    (V m c main_v8 : S11008x4096.Idx → EReal) = ternary (m ((c : Thread nD τ).loc main_arg1)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The region's activations operand is x as 8192 rows. -/
theorem V_x (c : Dev nD) :
    (V m c main_v10 : S8192x4096.Idx → EReal)
      = shapeCast S8192x4096 (m ((c : Thread nD τ).loc main_arg0)) shapeCasts_S4x2048x4096_S8192x4096 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The region's scale operand is the scale as a 1×1 array. -/
theorem V_s (c : Dev nD) :
    (V m c main_v11 : S1x1.Idx → EReal)
      = shapeCast S1x1 (scaleOf (m ((c : Thread nD τ).loc main_arg1))) shapeCasts_S_S1x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

end Cert.KernelIdeal.Head
end
-- ==== Proof.Cases.lean ====
/-
  What one grid step leaves in the output block, as a value.

  The body runs in two ways. On the first step along the contraction axis it zeroes the output block, reads the zero
  block back, and stores the zero block plus the product of the step's two operand blocks. On the last step it reads
  back what the step before left, stores that plus the product of its own two operand blocks, reads this back, and
  stores it scaled by the one entry of the scale block. Each way ends with a store that overwrites the whole block, so
  the block holds that last store's value, and every read-back is the value stored just before it.
-/
import proofs.«164007_j15822659519237_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases
open Cert.KernelIdeal Cert.KernelIdeal.Gen

variable {F : FTy → Type} [FloatOps F]

/-- The offsets of a whole-block access are all zero. -/
theorem hz : (![0, 0] : Fin 2 → Nat) = fun _ => 0 := funext fun a => by fin_cases a <;> rfl

/-- First step along the contraction axis: the block ends at (zero block) + (x block) · (w block)ᵀ. -/
theorem out_first (c : Dev nD) (i : grid0.Coords) (a3 : Memref sig .tc .vmem S1x1 .f32) (h3 : a3.IsWhole)
    (a4 : Memref sig .tc .vmem S2048x2048 .bf16) (h4 : a4.IsWhole) (a5 : Memref sig .tc .vmem S256x2048 .bf16) (h5 : a5.IsWhole)
    (a6 : Memref sig .tc .vmem S2048x256 .f32) (h6 : a6.IsWhole) (hc0 : cond0_0 i) (hc1 : ¬cond0_1 i)
    (x0 : Vec F S1x1 .f32) (x1 : Vec F S2048x2048 .bf16) (x2 : Vec F S256x2048 .bf16) :
    out0_A_3 c i a3 h3 a4 h4 a5 h5 a6 h6 hc0 hc1 x0 x1 x2 = k0_pay2 (k0_pay1 (F := F)) x1 x2 := by
  unfold out0_A_3
  rw [View.read_writes_eq_canon _ _ _ (cover0_A_3 c i a3 h3 a4 h4 a5 h5 a6 h6 hc0 hc1 x0 x1 x2)]
  unfold kernelRun0_A
  dsimp only
  sl_unfold_words
  rw [View.canon_cons_unit_zero (S := S2048x256) hz, View.readCov_unit_zero (S := S2048x256) _ hz]
  simp only [View.readAt_eq_ld, h4.read_unread, h5.read_unread, View.ld_unit_zero (S := S2048x2048) hz,
    View.ld_unit_zero (S := S256x2048) hz]

/-- Last step along the contraction axis: the block ends at ((what it held) + (x block) · (w block)ᵀ) · scale. -/
theorem out_last (c : Dev nD) (i : grid0.Coords) (a3 : Memref sig .tc .vmem S1x1 .f32) (h3 : a3.IsWhole)
    (a4 : Memref sig .tc .vmem S2048x2048 .bf16) (h4 : a4.IsWhole) (a5 : Memref sig .tc .vmem S256x2048 .bf16) (h5 : a5.IsWhole)
    (a6 : Memref sig .tc .vmem S2048x256 .f32) (h6 : a6.IsWhole) (hc0 : ¬cond0_0 i) (hc1 : cond0_1 i)
    (x0 : Vec F S1x1 .f32) (x1 : Vec F S2048x2048 .bf16) (x2 : Vec F S256x2048 .bf16) (xo : Vec F S2048x256 .f32) :
    out0_B_3 c i a3 h3 a4 h4 a5 h5 a6 h6 hc0 hc1 x0 x1 x2 xo = k0_pay3 (k0_pay2 xo x1 x2) x0 := by
  unfold out0_B_3
  rw [View.read_writes_eq_canon _ _ _ (cover0_B_3 c i a3 h3 a4 h4 a5 h5 a6 h6 hc0 hc1 x0 x1 x2 xo)]
  unfold kernelRun0_B
  dsimp only
  sl_unfold_words
  rw [View.canon_cons_unit_zero (S := S2048x256) hz, View.readCov_unit_zero (S := S2048x256) _ hz]
  simp only [View.readAt_eq_ld, h3.read_unread, h4.read_unread, h5.read_unread, h6.read_unread,
    View.ld_unit_zero (S := S2048x2048) hz, View.ld_unit_zero (S := S256x2048) hz,
    View.ld_unit_zero (S := S2048x256) hz, View.ld_unit_zero (S := S1x1) hz]

end Cert.KernelIdeal.Cases

end
-- ==== Proof.PayAt.lean ====
/-
  The three stored values of the body, read at one entry of the block, over the extended reals.

  The zero block reads 0 everywhere. The accumulating store reads, at row p and column q of the output block, what
  the block held there plus the sum over the 2048 contraction positions k of (x block)(p, k) · (w block)(q, k): the
  product contracts the LAST axis of both operands, so both are read along their rows, and the contraction index set
  is its one coordinate. The scaling store reads the block's entry times the one entry of the 1×1 scale block.
-/
import proofs.«164007_j15822659519237_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.PayAt
open Cert.KernelIdeal Cert.KernelIdeal.Gen ValueIdx

/-- The left operand's index at output (p, q) and contraction position k is (p, k); -/
theorem lhs0 (i : S2048x256.Idx) (q : dot_S2048x2048_S256x2048_S2048x256_1_1_0_0_n_n.contr.Idx) : (dot_S2048x2048_S256x2048_S2048x256_1_1_0_0_n_n.lhsIdx i q 0).val = (i 0).val := by
  unfold DotDims.lhsIdx
  rw [dif_neg (show ¬(0 : Fin S2048x2048.rank) ∈ dot_S2048x2048_S256x2048_S2048x256_1_1_0_0_n_n.lhsBatch by decide),
    dif_pos (show (0 : Fin S2048x2048.rank) ∈ dot_S2048x2048_S256x2048_S2048x256_1_1_0_0_n_n.lhsNonContracting by decide)]
  rfl
theorem lhs1 (i : S2048x256.Idx) (q : dot_S2048x2048_S256x2048_S2048x256_1_1_0_0_n_n.contr.Idx) : (dot_S2048x2048_S256x2048_S2048x256_1_1_0_0_n_n.lhsIdx i q 1).val = (q ⟨0, by decide⟩).val :=
  dot_S2048x2048_S256x2048_S2048x256_1_1_0_0_n_n.lhsIdx_val_of_single rfl i q
/-- the right operand's is (q, k): both operands are read along their rows. -/
theorem rhs0 (i : S2048x256.Idx) (q : dot_S2048x2048_S256x2048_S2048x256_1_1_0_0_n_n.contr.Idx) : (dot_S2048x2048_S256x2048_S2048x256_1_1_0_0_n_n.rhsIdx i q 0).val = (i 1).val := by
  unfold DotDims.rhsIdx
  rw [dif_neg (show ¬(0 : Fin S256x2048.rank) ∈ dot_S2048x2048_S256x2048_S2048x256_1_1_0_0_n_n.rhsBatch by decide),
    dif_pos (show (0 : Fin S256x2048.rank) ∈ dot_S2048x2048_S256x2048_S2048x256_1_1_0_0_n_n.rhsNonContracting by decide)]
  rfl
theorem rhs1 (i : S2048x256.Idx) (q : dot_S2048x2048_S256x2048_S2048x256_1_1_0_0_n_n.contr.Idx) : (dot_S2048x2048_S256x2048_S2048x256_1_1_0_0_n_n.rhsIdx i q 1).val = (q ⟨0, by decide⟩).val :=
  dot_S2048x2048_S256x2048_S2048x256_1_1_0_0_n_n.rhsIdx_val_of_single rfl i q

variable {F : FTy → Type} [FloatOps F] in
/-- The accumulating store's value: what the block held plus the block product into a zero accumulator (a cast of a
    block to its own shape changes nothing). -/
theorem pay2_eq (acc : Vec F S2048x256 .f32) (a : Vec F S2048x2048 .bf16) (b : Vec F S256x2048 .bf16) :
    k0_pay2 acc a b = addf acc (matmul dot_S2048x2048_S256x2048_S2048x256_1_1_0_0_n_n none a b (constant S2048x256 .f32 0x00000000#32)) := by
  unfold k0_pay2; simp only [shapeCast_self]

variable {F : FTy → Type} [FloatOps F] in
/-- The scaling store's value: the block times the scale block's one entry, repeated over the block. -/
theorem pay3_eq (v : Vec F S2048x256 .f32) (s : Vec F S1x1 .f32) :
    k0_pay3 v s = mulf v (broadcast S2048x256 (extractAt ![0, 0] s inpos_S1x1_p0_0)) := by
  unfold k0_pay3; simp only [shapeCast_self]

/-- The zero block is 0 at every entry. -/
theorem pay1_apply (j : S2048x256.Idx) : k0_pay1 (F := Ideal) j = 0 := Ideal.ofBits_zero_f32

/-- Entry (p, q) of the accumulating store: acc(p, q) + Σ_k a(p, k) · b(q, k) over the 2048 contraction positions. -/
theorem pay2_apply (acc : Vec Ideal S2048x256 .f32) (a : Vec Ideal S2048x2048 .bf16) (b : Vec Ideal S256x2048 .bf16)
    (p : Fin 2048) (q : Fin 256) :
    k0_pay2 acc a b (ix2 p q) = acc (ix2 p q) + ∑ k : Fin 2048, a (ix2 p k) * b (ix2 q k) := by
  rw [pay2_eq]
  show acc (ix2 p q) + FloatOps.matmul (F := Ideal) dot_S2048x2048_S256x2048_S2048x256_1_1_0_0_n_n none a b (constant (F := Ideal) S2048x256 .f32 0x00000000#32) (ix2 p q) = _
  rw [Ideal.matmul_constant_zero_apply, ← Equiv.sum_comp (contrEquiv1 dot_S2048x2048_S256x2048_S2048x256_1_1_0_0_n_n 2048 rfl rfl).symm]
  refine congrArg _ (Finset.sum_congr rfl fun k _ => ?_)
  have hk := contrEquiv1_symm_val dot_S2048x2048_S256x2048_S2048x256_1_1_0_0_n_n 2048 rfl rfl k
  have el : dot_S2048x2048_S256x2048_S2048x256_1_1_0_0_n_n.lhsIdx (ix2 p q) ((contrEquiv1 dot_S2048x2048_S256x2048_S2048x256_1_1_0_0_n_n 2048 rfl rfl).symm k) = ix2 p k := funext fun a => Fin.ext (by
    match a with
    | ⟨0, _⟩ => exact lhs0 _ _
    | ⟨1, _⟩ => exact (lhs1 _ _).trans hk)
  have er : dot_S2048x2048_S256x2048_S2048x256_1_1_0_0_n_n.rhsIdx (ix2 p q) ((contrEquiv1 dot_S2048x2048_S256x2048_S2048x256_1_1_0_0_n_n 2048 rfl rfl).symm k) = ix2 q k := funext fun a => Fin.ext (by
    match a with
    | ⟨0, _⟩ => exact rhs0 _ _
    | ⟨1, _⟩ => exact (rhs1 _ _).trans hk)
  rw [el, er]

/-- Entry j of the scaling store: v(j) · s(0, 0). -/
theorem pay3_apply (v : Vec Ideal S2048x256 .f32) (s : Vec Ideal S1x1 .f32) (j : S2048x256.Idx) :
    k0_pay3 v s j = v j * s (ix2 0 0) := by
  rw [pay3_eq]
  show v j * s _ = v j * s _
  congr 2
  funext a
  match a with
  | ⟨0, _⟩ => rfl
  | ⟨1, _⟩ => rfl

end Cert.KernelIdeal.PayAt
end
-- ==== Proof.Blocks.lean ====
/-
  From blocks to the output array.

  The grid has 4 × 43 × 2 points, taken in row-major order: point t is (i, j, s) with i = t / 86 the block of rows,
  j = (t / 2) mod 43 the block of output columns, and s = t mod 2 the half of the contraction axis. The activations
  block at t is rows [2048 i, 2048 i + 2048) and contraction positions [2048 s, 2048 s + 2048); the weights block is
  weight rows [256 j, 256 j + 256) and the same contraction positions; the output block is rows i, columns j, and it
  is written back after the second half only. At such a point the block holds
      ((0 + first-half sum) + second-half sum) · scale
  at every entry, where each half sum is over 2048 contraction positions of activations(row, d) · weights(col, d):
  the first step's operand blocks are those of the point before, which has the same i and j. Every entry of the
  8192 × 11008 array lies in the block of exactly such a point, so the array ends holding that expression everywhere.
-/
import proofs.«164007_j15822659519237_2_alg».proof.Proof.Gen.KernelIdeal.Frame
import proofs.«164007_j15822659519237_2_alg».proof.Proof.Cases
import proofs.«164007_j15822659519237_2_alg».proof.Proof.PayAt
import proofs.«164007_j15822659519237_2_alg».proof.Proof.Head
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Blocks
open Cert.KernelIdeal Cert.KernelIdeal.Gen ValueIdx

variable (m : (ℓ : Loc nD τ sig) → Buf (Elt Ideal) ℓ)

/-- position k of the first half of the contraction axis -/
abbrev lo (k : Fin 2048) : Fin 4096 := ⟨k.val, by have := k.isLt; omega⟩
/-- position k of the second half -/
abbrev hi (k : Fin 2048) : Fin 4096 := ⟨2048 + k.val, by have := k.isLt; omega⟩

/-- what the output array holds: two half sums, then the scale -/
def acc2 (X : S8192x4096.Idx → EReal) (W : S11008x4096.Idx → EReal) (S : S1x1.Idx → EReal) : S8192x11008.Idx → EReal :=
  fun j => ((0 + ∑ k : Fin 2048, X (ix2 (j 0) (lo k)) * W (ix2 (j 1) (lo k)))
    + ∑ k : Fin 2048, X (ix2 (j 0) (hi k)) * W (ix2 (j 1) (hi k))) * S (ix2 0 0)

/-- The block indices of the four operands at point t, in closed form (checked at every point of the grid). -/
theorem idx_facts : ∀ t : Fin cfg0.N,
    win0_0.index t 0 = 0 ∧ win0_0.index t 1 = 0 ∧
    win0_1.index t 0 = t.val / 86 ∧ win0_1.index t 1 = t.val % 2 ∧
    win0_2.index t 0 = t.val / 2 % 43 ∧ win0_2.index t 1 = t.val % 2 ∧
    win0_3.index t 0 = t.val / 86 ∧ win0_3.index t 1 = t.val / 2 % 43 :=
  (by decide +kernel : ∀ t : Fin grid0.N, _)

/-- The scale block is the whole 1×1 scale array. -/
theorem iblk0_apply (c : Dev nD) (t : Fin cfg0.N) :
    (iblk m c 0 t : Vec Ideal S1x1 .f32) (ix2 0 0) = (V m c main_v11 : S1x1.Idx → EReal) (ix2 0 0) := by
  obtain ⟨e0, e1, -⟩ := idx_facts t
  unfold iblk
  rw [View.read_apply]
  show V m c main_v11 _ = V m c main_v11 _
  congr 1
  funext a
  apply Fin.ext
  match a with
  | ⟨0, _⟩ => show win0_0.index t 0 * 1 + 1 * 0 = 0; omega
  | ⟨1, _⟩ => show win0_0.index t 1 * 1 + 1 * 0 = 0; omega

/-- Entry (p, k) of the activations block at t is the array's entry (P, D) once P and D are the block's offsets plus p and k. -/
theorem iblk1_apply (c : Dev nD) (t : Fin cfg0.N) (p k : Fin 2048) (P : Fin 8192) (D : Fin 4096)
    (hP : P.val = win0_1.index t 0 * 2048 + p.val) (hD : D.val = win0_1.index t 1 * 2048 + k.val) :
    (iblk m c 1 t : Vec Ideal S2048x2048 .bf16) (ix2 p k) = (V m c main_v10 : S8192x4096.Idx → EReal) (ix2 P D) := by
  unfold iblk
  rw [View.read_apply]
  show V m c main_v10 _ = V m c main_v10 _
  congr 1
  funext a
  apply Fin.ext
  match a with
  | ⟨0, _⟩ => show win0_1.index t 0 * 2048 + 1 * p.val = P.val; omega
  | ⟨1, _⟩ => show win0_1.index t 1 * 2048 + 1 * k.val = D.val; omega

/-- Entry (q, k) of the weights block at t is the array's entry (Q, D) likewise. -/
theorem iblk2_apply (c : Dev nD) (t : Fin cfg0.N) (q : Fin 256) (k : Fin 2048) (Q : Fin 11008) (D : Fin 4096)
    (hQ : Q.val = win0_2.index t 0 * 256 + q.val) (hD : D.val = win0_2.index t 1 * 2048 + k.val) :
    (iblk m c 2 t : Vec Ideal S256x2048 .bf16) (ix2 q k) = (V m c main_v8 : S11008x4096.Idx → EReal) (ix2 Q D) := by
  unfold iblk
  rw [View.read_apply]
  show V m c main_v8 _ = V m c main_v8 _
  congr 1
  funext a
  apply Fin.ext
  match a with
  | ⟨0, _⟩ => show win0_2.index t 0 * 256 + 1 * q.val = Q.val; omega
  | ⟨1, _⟩ => show win0_2.index t 1 * 2048 + 1 * k.val = D.val; omega

/-- What the output block holds after a last step: the step before it (a first step) and this one. -/
theorem outsAt_last (c : Dev nD) (t : Fin cfg0.N) (h1 : t.val % 2 = 1) (hlt : t.val - 1 < cfg0.N) :
    outsAt0 m c t.val t.isLt
      = k0_pay3 (k0_pay2 (k0_pay2 (k0_pay1 (F := Ideal)) (iblk m c 1 ⟨t.val - 1, hlt⟩) (iblk m c 2 ⟨t.val - 1, hlt⟩))
          (iblk m c 1 t) (iblk m c 2 t)) (iblk m c 0 t) := by
  have h0 : ¬ t.val % 2 = 0 := by omega
  have hA := outsAt0_A m c ⟨t.val - 1, hlt⟩ (by show (t.val - 1) % 2 = 0; omega) (by show ¬ (t.val - 1) % 2 = 1; omega)
  rw [outsAt0_B m c t h0 h1, Cases.out_last]
  rw [show outsAt0 m c (t.val - 1) (Nat.lt_of_le_of_lt (Nat.sub_le _ _) t.isLt) = _ from hA, Cases.out_first]

/-- Entry (p, q) of a last step's block. -/
theorem step_apply (s : Vec Ideal S1x1 .f32) (a0 a1 : Vec Ideal S2048x2048 .bf16) (b0 b1 : Vec Ideal S256x2048 .bf16)
    (p : Fin 2048) (q : Fin 256) :
    k0_pay3 (k0_pay2 (k0_pay2 (k0_pay1 (F := Ideal)) a0 b0) a1 b1) s (ix2 p q)
      = ((0 + ∑ k : Fin 2048, a0 (ix2 p k) * b0 (ix2 q k)) + ∑ k : Fin 2048, a1 (ix2 p k) * b1 (ix2 q k)) * s (ix2 0 0) := by
  rw [PayAt.pay3_apply, PayAt.pay2_apply, PayAt.pay2_apply, PayAt.pay1_apply]

/-- What a second-half point writes back is its block of the whole-array expression. -/
theorem flushed_eq (c : Dev nD) (t : Fin cfg0.N) (hf : (cfg0.win 3).flush t = true) :
    (dats m 0 c).flushed 3 t
      = ((cfg0.win 3).blk t).view.read (Elt Ideal) (acc2 (V m c main_v10) (V m c main_v8) (V m c main_v11)) := by
  have h1 : t.val % 2 = 1 := (flush0_3 t).mp hf
  have hN : t.val < 344 := lt_of_lt_of_eq t.isLt (show cfg0.N = 344 from N_0)
  have hlt : t.val - 1 < cfg0.N := Nat.lt_of_le_of_lt (Nat.sub_le _ _) t.isLt
  obtain ⟨-, -, e10, e11, e20, e21, e30, e31⟩ := idx_facts t
  have f := idx_facts ⟨t.val - 1, hlt⟩
  dsimp only at f
  obtain ⟨-, -, f10, f11, f20, f21, -, -⟩ := f
  show (cfg0.win 3).cut (grid0.coords t) ((dats m 0 c).after 3 t) = _
  rw [after0_3, outsAt_last m c t h1 hlt]
  funext y
  obtain ⟨p, q, rfl⟩ : ∃ (p : Fin 2048) (q : Fin 256), y = ix2 p q := ⟨y 0, y 1, eq_ix2 y⟩
  have hp := p.isLt
  have hq := q.isLt
  rw [View.read_apply]
  refine (step_apply _ _ _ _ _ p q).trans ?_
  have a0 : ∀ k : Fin 2048, (iblk m c 1 ⟨t.val - 1, hlt⟩ : Vec Ideal S2048x2048 .bf16) (ix2 p k)
      = (V m c main_v10 : S8192x4096.Idx → EReal) (ix2 ((((cfg0.win 3).blk t).view.emb (ix2 p q)) 0) (lo k)) := fun k =>
    iblk1_apply m c ⟨t.val - 1, hlt⟩ p k _ (lo k)
      (by show win0_3.index t 0 * 2048 + 1 * p.val = win0_1.index ⟨t.val - 1, hlt⟩ 0 * 2048 + p.val; omega)
      (by show k.val = win0_1.index ⟨t.val - 1, hlt⟩ 1 * 2048 + k.val; omega)
  have a1 : ∀ k : Fin 2048, (iblk m c 1 t : Vec Ideal S2048x2048 .bf16) (ix2 p k)
      = (V m c main_v10 : S8192x4096.Idx → EReal) (ix2 ((((cfg0.win 3).blk t).view.emb (ix2 p q)) 0) (hi k)) := fun k =>
    iblk1_apply m c t p k _ (hi k)
      (by show win0_3.index t 0 * 2048 + 1 * p.val = win0_1.index t 0 * 2048 + p.val; omega)
      (by show 2048 + k.val = win0_1.index t 1 * 2048 + k.val; omega)
  have b0 : ∀ k : Fin 2048, (iblk m c 2 ⟨t.val - 1, hlt⟩ : Vec Ideal S256x2048 .bf16) (ix2 q k)
      = (V m c main_v8 : S11008x4096.Idx → EReal) (ix2 ((((cfg0.win 3).blk t).view.emb (ix2 p q)) 1) (lo k)) := fun k =>
    iblk2_apply m c ⟨t.val - 1, hlt⟩ q k _ (lo k)
      (by show win0_3.index t 1 * 256 + 1 * q.val = win0_2.index ⟨t.val - 1, hlt⟩ 0 * 256 + q.val; omega)
      (by show k.val = win0_2.index ⟨t.val - 1, hlt⟩ 1 * 2048 + k.val; omega)
  have b1 : ∀ k : Fin 2048, (iblk m c 2 t : Vec Ideal S256x2048 .bf16) (ix2 q k)
      = (V m c main_v8 : S11008x4096.Idx → EReal) (ix2 ((((cfg0.win 3).blk t).view.emb (ix2 p q)) 1) (hi k)) := fun k =>
    iblk2_apply m c t q k _ (hi k)
      (by show win0_3.index t 1 * 256 + 1 * q.val = win0_2.index t 0 * 256 + q.val; omega)
      (by show 2048 + k.val = win0_2.index t 1 * 2048 + k.val; omega)
  exact congrArg₂ (· * ·)
    (congrArg₂ (· + ·) (congrArg (0 + ·) (Finset.sum_congr rfl fun k _ => congrArg₂ (· * ·) (a0 k) (b0 k)))
      (Finset.sum_congr rfl fun k _ => congrArg₂ (· * ·) (a1 k) (b1 k)))
    (iblk0_apply m c t)

/-- An entry of the array is in point t's output block iff each coordinate is in the block's range. -/
theorem mem_blk (t : Fin cfg0.N) (i : S8192x11008.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v12).slice (win0_3.rect t)).set ↔ _
  rw [View.set_slice_whole, Rect.mem_set_unit]
  exact Iff.rfl

/-- Entry (r, o) lies in the block written back at the second-half point of rows r / 2048 and columns o / 256. -/
theorem cover (i : S8192x11008.Idx) :
    ∃ t : Fin cfg0.N, (cfg0.win 3).flush t = true ∧ i ∈ ((cfg0.win 3).blk t).view.set := by
  have hi0 : (i 0).val < 8192 := (i 0).isLt
  have hi1 : (i 1).val < 11008 := (i 1).isLt
  have hN : cfg0.N = 344 := N_0
  obtain ⟨tv, htv⟩ : ∃ tv : Nat, tv = ((i 0).val / 2048 * 43 + (i 1).val / 256) * 2 + 1 := ⟨_, rfl⟩
  have hlt : tv < cfg0.N := by rw [hN]; omega
  have f := idx_facts ⟨tv, hlt⟩
  dsimp only at f
  obtain ⟨-, -, -, -, -, -, e30, e31⟩ := f
  refine ⟨⟨tv, hlt⟩, (flush0_3 _).mpr (by show tv % 2 = 1; omega), ?_⟩
  rw [mem_blk]
  intro a
  match a with
  | ⟨0, _⟩ =>
    show win0_3.index ⟨tv, hlt⟩ 0 * 2048 ≤ (i 0).val ∧ (i 0).val < win0_3.index ⟨tv, hlt⟩ 0 * 2048 + 2048
    omega
  | ⟨1, _⟩ =>
    show win0_3.index ⟨tv, hlt⟩ 1 * 256 ≤ (i 1).val ∧ (i 1).val < win0_3.index ⟨tv, hlt⟩ 1 * 256 + 256
    omega

/-- The output array after the region. -/
theorem final (c : Dev nD) :
    (dats m 0 c).arrAt 3 cfg0.N = acc2 (V m c main_v10) (V m c main_v8) (V m c main_v11) :=
  (dats m 0 c).arrAt_eq_of_cover 3 _ (flushed_eq m c) cover

end Cert.KernelIdeal.Blocks
end
-- ==== Proof.Result.lean ====
/-
  The two programs compute one function.

  Both end with, at batch b, position s and output feature o,
      (the sum over the 4096 input features d of x(b, s, d) · ternary(o, d)) · scale,
  where ternary = clip(round(weight / scale), −1, 1) and scale = mean|weight| + ε. The reference contracts all 4096
  features at once. The kernel works on x laid out as 8192 = 4 · 2048 rows (row 2048 b + s is (b, s)), sums the first
  2048 features into a zeroed block, adds the sum of the last 2048, multiplies by the scale, and the host line after
  the region lays the 8192 rows out as (4, 2048) again. Splitting a sum over 4096 positions into its two halves only
  regroups an addition, which holds on the extended reals with no condition on the summands, so the inputs'
  finiteness is never used.
-/
import proofs.«164007_j15822659519237_2_alg».proof.Proof.Gen.KernelIdeal.Frame
import proofs.«164007_j15822659519237_2_alg».proof.Proof.Gen.ReferenceIdeal.Read
import proofs.«164007_j15822659519237_2_alg».proof.Proof.Head
import proofs.«164007_j15822659519237_2_alg».proof.Proof.Blocks
import Idealize.ShloMosaic.Lib.Pipeline.Value
import Idealize.ShloMosaic.Lib.ValueIdx
import Idealize.ShloMosaic.PureOps.Ideal.Laws
import Idealize.ShloMosaic.Lib.StableHlo.Run
import Idealize.ShloMosaic.Lib.Tactic
import Mathlib.Algebra.BigOperators.Fin

noncomputable section

open Idealize.ShloMosaic Idealize.ShloMosaic.TcCoe Idealize.SL.Sem
open Idealize.ShloMosaic.Pipeline (Dat)

namespace Cert.BitLinear
open Cert.ReferenceIdeal.Read ValueIdx

/-- The common result: at (b, s, o), (the sum over d of x(b, s, d) · ternary(o, d)) · scale. -/
def G (x : Cert.ReferenceIdeal.S4x2048x4096.Idx → EReal) (w : Cert.ReferenceIdeal.S11008x4096.Idx → EReal) :
    Cert.ReferenceIdeal.S4x2048x11008.Idx → EReal :=
  fun i => (∑ d : Fin 4096, x (lidx_main_v8 i d) * val_main_v7 (F := Ideal) w (ridx_main_v8 i d))
    * val_main_v3 (F := Ideal) w (idx_main_v9 i)

/-- The reference's last stage is that function. -/
theorem reference_eq (x : Cert.ReferenceIdeal.S4x2048x4096.Idx → EReal) (w : Cert.ReferenceIdeal.S11008x4096.Idx → EReal) :
    val_main_v10 (F := Ideal) x w = G x w := by
  funext i
  rw [val_main_v10_apply, val_main_v8_apply, val_main_v9_apply]
  rfl

/-- A sum over the 4096 contraction positions is the sum over the first 2048 plus the sum over the last 2048. -/
theorem sum_halves (f : Fin 4096 → EReal) :
    ∑ d : Fin 4096, f d = ∑ k : Fin 2048, f (Cert.KernelIdeal.Blocks.lo k) + ∑ k : Fin 2048, f (Cert.KernelIdeal.Blocks.hi k) :=
  Fin.sum_univ_add (a := 2048) (b := 2048) f

end Cert.BitLinear

namespace Cert.KernelIdeal.Result
open Cert.KernelIdeal Cert.KernelIdeal.Gen Cert.KernelIdeal.Blocks ValueIdx Cert.ReferenceIdeal.Read

variable (m : (ℓ : Loc nD τ sig) → Buf (Elt Ideal) ℓ) (ρ : Dev nD → PrngReg)

/-- The whole-array expression at row P and column O. -/
theorem acc2_apply (X : S8192x4096.Idx → EReal) (W : S11008x4096.Idx → EReal) (S : S1x1.Idx → EReal) (P : Fin 8192) (O : Fin 11008) :
    acc2 X W S (ix2 P O) = ((0 + ∑ k : Fin 2048, X (ix2 P (lo k)) * W (ix2 O (lo k)))
      + ∑ k : Fin 2048, X (ix2 P (hi k)) * W (ix2 O (hi k))) * S (ix2 0 0) := rfl

theorem kernel_eq (c : Dev nD) :
    shapeCast S4x2048x11008 (acc2 (V m c main_v10) (V m c main_v8) (V m c main_v11)) shapeCasts_S8192x11008_S4x2048x11008
      = Cert.BitLinear.G (m ((c : Thread nD τ).loc main_arg0)) (m ((c : Thread nD τ).loc main_arg1)) := by
  funext i
  have hi0 : (i 0).val < 4 := (i 0).isLt
  have hi1 : (i 1).val < 2048 := (i 1).isLt
  have hi2 : (i 2).val < 11008 := (i 2).isLt
  obtain ⟨P, hP⟩ : ∃ P : Fin 8192, P.val = (i 0).val * 2048 + (i 1).val := ⟨⟨(i 0).val * 2048 + (i 1).val, by omega⟩, rfl⟩
  obtain ⟨O, hO⟩ : ∃ O : Fin 11008, O.val = (i 2).val := ⟨⟨(i 2).val, hi2⟩, rfl⟩
  rw [shapeCast_apply _ shapeCasts_S8192x11008_S4x2048x11008 i (ix2 P O) (by
    rw [Shape.rowMajor_val_two, Shape.rowMajor_val_three]
    show P.val * 11008 + O.val = ((i 0).val * 2048 + (i 1).val) * 11008 + (i 2).val
    rw [hP, hO])]
  rw [Head.V_x, Head.V_w, Head.V_s]
  have hX : ∀ d : Fin 4096, shapeCast S8192x4096 (m ((c : Thread nD τ).loc main_arg0)) shapeCasts_S4x2048x4096_S8192x4096 (ix2 P d)
      = m ((c : Thread nD τ).loc main_arg0) (lidx_main_v8 i d) := fun d =>
    shapeCast_apply _ shapeCasts_S4x2048x4096_S8192x4096 (ix2 P d) (lidx_main_v8 i d) (by
      rw [Shape.rowMajor_val_two, Shape.rowMajor_val_three]
      show ((i 0).val * 2048 + (i 1).val) * 4096 + d.val = P.val * 4096 + d.val
      rw [hP])
  have hW : ∀ d : Fin 4096, (ix2 O d : S11008x4096.Idx) = ridx_main_v8 i d := fun d => funext fun a => Fin.ext (by
    match a with
    | ⟨0, _⟩ => exact hO
    | ⟨1, _⟩ => rfl)
  have hS : shapeCast S1x1 (Head.scaleOf (m ((c : Thread nD τ).loc main_arg1))) shapeCasts_S_S1x1 (ix2 0 0)
      = Head.scaleOf (m ((c : Thread nD τ).loc main_arg1)) (idx_main_v9 i) := by
    unfold shapeCast
    exact congrArg _ (funext fun a => a.elim0)
  rw [acc2_apply]
  unfold Cert.BitLinear.G
  refine congrArg₂ (· * ·) ?_ hS
  rw [zero_add, Cert.BitLinear.sum_halves]
  exact congrArg₂ (· + ·)
    (Finset.sum_congr rfl fun k _ => congrArg₂ (· * ·) (hX (lo k)) (congrArg _ (hW (lo k))))
    (Finset.sum_congr rfl fun k _ => congrArg₂ (· * ·) (hX (hi k)) (congrArg _ (hW (hi k))))

/-- The result buffer after the host line that follows the region. -/
theorem tail_eq (c : Dev nD) :
    Pipeline.afterTail₀ cfgs (dats m) 0 (V0 m) [hostOps1] c main_v13
      = Cert.BitLinear.G (m ((c : Thread nD τ).loc main_arg0)) (m ((c : Thread nD τ).loc main_arg1)) := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v12)
      = acc2 (V m c main_v10) (V m c main_v8) (V m c main_v11) :=
    (Pipeline.withArrays_arr spec0 launch0.win.arr_inj c _ _ 3).trans (final m c)
  rw [hw]
  exact kernel_eq m c

/-- The kernel's run, read: the result buffer at the common function of the arguments, the arguments unchanged. -/
theorem run : θ_run defs (onTc (τ := τ) (main (F := Ideal))) ⟨m, fun _ => 0, ρ⟩ fun r => ∀ c : Dev nD,
      r.2.mem ((c : Thread nD τ).loc main_v13)
        = Cert.BitLinear.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v13 (Pipeline.mem_restRefs_of main_v13 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result
end
-- ==== Proof.lean ====
/- The proof of `Cert.Claim`: the ternary-weight linear layer (a blocked matrix product over a 4 × 43 × 2 grid, accumulating the
   two halves of the contraction axis into the output block and scaling on the last step) against its reference.

   Both programs first compute scale = mean|weight| + ε and the ternary array clip(round(weight / scale), −1, 1) with
   the same host operations. The reference then contracts x with the ternary array over all 4096 input features and
   multiplies by the scale; the kernel contracts the first 2048 features into a zeroed block, adds the contraction of
   the last 2048, and multiplies by the scale. Over the extended reals the two agree entry by entry: a sum over 4096
   positions is the sum of its two halves, and 0 + a = a.

   Proof/Cases.lean   what one grid step leaves in the output block, for the two kinds of step
   Proof/PayAt.lean   the body's three stored values read at an entry (the block product as a sum over k)
   Proof/Head.lean    the arrays the region is handed (activations as rows, ternary weights, the 1×1 scale)
   Proof/Blocks.lean  from blocks to the whole output array
   Proof/Result.lean  the common function, the reference's and the kernel's result equal to it, the kernel's run
   The three frames are the generated frame runs; the idealization rewrote nothing, so `preserves` is `True`. -/
import proofs.«164007_j15822659519237_2_alg».proof.Defs
import proofs.«164007_j15822659519237_2_alg».proof.Proof.Gen.Kernel
import proofs.«164007_j15822659519237_2_alg».proof.Proof.Gen.Kernel.Skeleton
import proofs.«164007_j15822659519237_2_alg».proof.Proof.Gen.Kernel.Launch
import proofs.«164007_j15822659519237_2_alg».proof.Proof.Gen.Kernel.Points
import proofs.«164007_j15822659519237_2_alg».proof.Proof.Gen.Kernel.Frame
import proofs.«164007_j15822659519237_2_alg».proof.Proof.Gen.KernelIdeal
import proofs.«164007_j15822659519237_2_alg».proof.Proof.Gen.KernelIdeal.Skeleton
import proofs.«164007_j15822659519237_2_alg».proof.Proof.Gen.KernelIdeal.Launch
import proofs.«164007_j15822659519237_2_alg».proof.Proof.Gen.KernelIdeal.Points
import proofs.«164007_j15822659519237_2_alg».proof.Proof.Gen.KernelIdeal.Frame
import proofs.«164007_j15822659519237_2_alg».proof.Proof.Gen.ReferenceIdeal
import proofs.«164007_j15822659519237_2_alg».proof.Proof.Gen.Pre_finite_inputs
import proofs.«164007_j15822659519237_2_alg».proof.Proof.Gen.ReferenceIdeal.Run
import proofs.«164007_j15822659519237_2_alg».proof.Proof.Gen.ReferenceIdeal.Read
import proofs.«164007_j15822659519237_2_alg».proof.Proof.Result
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x and weight, the kernel's result buffer and the reference's both end at
    (Σ_d x(b, s, d) · ternary(o, d)) · scale of those arguments. -/
theorem algebraic : Cert.algebraic_KernelIdeal_ReferenceIdeal := by
  intro m ρ m' ρ' _ hagree
  refine ⟨fun c => Cert.BitLinear.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.BitLinear.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
